-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S501 : Shape := ⟨1, ![501]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel
  bcast_S_S501 : S_.BroadcastsInDim S501 (![] : Fin 0 → Fin S501.rank)
  reducesTo_S501_S_d0 : S501.ReducesTo [0] S_

variable [Facts]

def fn {F : FTy → Type} [FloatOps F] (main_arg0 : FVec F S16777216 .f32) (main_arg1 : FVec F S16777216 .f32) (main_arg2 : FVec F S501 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S501 .f32 := Host.absf main_arg2
  let main_cst_2 : FVec F S_ .f32 := constant S_ .f32 0x7F800000#32
  let main_v10 : FVec F S501 .f32 := broadcastInDim S501 ![] bcast_S_S501 main_cst_2
  let main_v11 : IVec S501 1 := cmpf .olt main_v9 main_v10
  let main_c_3 : IVec S_ 1 := constantI S_ 1 1#1
  let main_v12 : IVec S_ 1 := (fun x v => Host.reduce IntOp.andi x v reducesTo_S501_S_d0 h_S_) main_v11 main_c_3
  let main_v13 : IVec S_ 1 := andi main_v8 main_v12
  main_v13
-- ==== Kernel.lean ====
abbrev S16777216 : Shape := ⟨1, ![16777216]⟩
abbrev S501 : Shape := ⟨1, ![501]⟩
abbrev S_ : Shape := ⟨0, ![]⟩
abbrev S512 : Shape := ⟨1, ![512]⟩
abbrev S131072x128 : Shape := ⟨2, ![131072, 128]⟩
abbrev S4x128 : Shape := ⟨2, ![4, 128]⟩
abbrev S2x1x1 : Shape := ⟨3, ![2, 1, 1]⟩
abbrev S4096x128 : Shape := ⟨2, ![4096, 128]⟩
abbrev S1x1x1 : Shape := ⟨3, ![1, 1, 1]⟩
abbrev S1x128 : Shape := ⟨2, ![1, 128]⟩
abbrev S128 : Shape := ⟨1, ![128]⟩
abbrev S4096x128x1 : Shape := ⟨3, ![4096, 128, 1]⟩
abbrev S4096 : Shape := ⟨1, ![4096]⟩
abbrev S4096x1 : Shape := ⟨2, ![4096, 1]⟩
abbrev S1 : Shape := ⟨1, ![1]⟩
abbrev S1x1 : Shape := ⟨2, ![1, 1]⟩

abbrev nBuf : Space → Nat
  | .hbm => 23
  | .vmem => 7
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S501, .f32⟩
  | .hbm, ⟨3, _⟩ => ⟨S_, .f32⟩
  | .hbm, ⟨4, _⟩ => ⟨S501, .f32⟩
  | .hbm, ⟨5, _⟩ => ⟨S501, .i1⟩
  | .hbm, ⟨6, _⟩ => ⟨S_, .f32⟩
  | .hbm, ⟨7, _⟩ => ⟨S501, .f32⟩
  | .hbm, ⟨8, _⟩ => ⟨S501, .f32⟩
  | .hbm, ⟨9, _⟩ => ⟨S_, .f32⟩
  | .hbm, ⟨10, _⟩ => ⟨S501, .f32⟩
  | .hbm, ⟨11, _⟩ => ⟨S501, .f32⟩
  | .hbm, ⟨12, _⟩ => ⟨S_, .f32⟩
  | .hbm, ⟨13, _⟩ => ⟨S_, .f32⟩
  | .hbm, ⟨14, _⟩ => ⟨S512, .f32⟩
  | .hbm, ⟨15, _⟩ => ⟨S131072x128, .f32⟩
  | .hbm, ⟨16, _⟩ => ⟨S131072x128, .f32⟩
  | .hbm, ⟨17, _⟩ => ⟨S4x128, .f32⟩
  | .hbm, ⟨18, _⟩ => ⟨S2x1x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4x128, .f32⟩
  | .local _ .vmem, ⟨5, _⟩ => ⟨S1x1x1, .f32⟩
  | .local _ .vmem, ⟨6, _⟩ => ⟨S1x1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_call0_v0 : Ref sig .tc := ⟨.hbm, 10, rfl⟩
abbrev main_v4 : Ref sig .tc := ⟨.hbm, 11, rfl⟩
abbrev main_cst_2 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S501 : S_.BroadcastsInDim S501 (![] : Fin 0 → Fin S501.rank)
  pads_S501_S512_0110 : S501.Pads (![0] : Fin 1 → Nat) ![11] ![0] S512
  h_S_ : 0 < S_.numel
  shapeCasts_S16777216_S131072x128 : S16777216.ShapeCasts S131072x128
  shapeCasts_S512_S4x128 : S512.ShapeCasts S4x128
  inb_S1x1x1_S1x1x1_0_0_0 : ∀ a, (![0, 0, 0] : Fin 3 → Nat) a + S1x1x1.size a ≤ S1x1x1.size a
  h_S1x1x1 : 0 < S1x1x1.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4x128_S1x128_0_0 : ∀ a, (![0, 0] : Fin 2 → Nat) a + S1x128.size a ≤ S4x128.size a
  h_S1x128 : 0 < S1x128.numel
  shapeCasts_S1x128_S128 : S1x128.ShapeCasts S128
  shapeCasts_S128_S1x128 : S128.ShapeCasts S1x128
  shapeCasts_S1x128_S1x128 : S1x128.ShapeCasts S1x128
  broadcasts_S1x128_S4096x128 : S1x128.Broadcasts S4096x128
  inb_S4x128_S1x128_1_0 : ∀ a, (![1, 0] : Fin 2 → Nat) a + S1x128.size a ≤ S4x128.size a
  inb_S4x128_S1x128_2_0 : ∀ a, (![2, 0] : Fin 2 → Nat) a + S1x128.size a ≤ S4x128.size a
  inb_S4x128_S1x128_3_0 : ∀ a, (![3, 0] : Fin 2 → Nat) a + S1x128.size a ≤ S4x128.size a
  shapeCasts_S4096x128_S4096x128x1 : S4096x128.ShapeCasts S4096x128x1
  shapeCasts_S4096x128x1_S4096x128 : S4096x128x1.ShapeCasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x128.size a
  hwx0_2 : ∀ i : grid0.Coords, EltTy.bits .f32 = 32 ∨ (Rect.block (s := S4x128) S4x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_v6) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16777216 : Shape := ⟨1, ![16777216]⟩
abbrev S501 : Shape := ⟨1, ![501]⟩
abbrev S_ : Shape := ⟨0, ![]⟩
abbrev S16777216x1 : Shape := ⟨2, ![16777216, 1]⟩

abbrev nBuf : Space → Nat
  | .hbm => 44
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S501, .f32⟩
  | .hbm, ⟨3, _⟩ => ⟨S_, .f32⟩
  | .hbm, ⟨4, _⟩ => ⟨S16777216, .f32⟩
  | .hbm, ⟨5, _⟩ => ⟨S16777216, .f32⟩
  | .hbm, ⟨6, _⟩ => ⟨S16777216, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S16777216, .i32⟩
  | .hbm, ⟨11, _⟩ => ⟨S16777216, .i32⟩
  | .hbm, ⟨12, _⟩ => ⟨S_, .i32⟩
  | .hbm, ⟨13, _⟩ => ⟨S16777216, .i32⟩
  | .hbm, ⟨14, _⟩ => ⟨S16777216, .i32⟩
  | .hbm, ⟨15, _⟩ => ⟨S_, .i32⟩
  | .hbm, ⟨16, _⟩ => ⟨S16777216, .i32⟩
  | .hbm, ⟨17, _⟩ => ⟨S16777216, .i1⟩
  | .hbm, ⟨18, _⟩ => ⟨S_, .i32⟩
  | .hbm, ⟨19, _⟩ => ⟨S16777216, .i32⟩
  | .hbm, ⟨20, _⟩ => ⟨S16777216, .i32⟩
  | .hbm, ⟨21, _⟩ => ⟨S16777216, .i32⟩
  | .hbm, ⟨22, _⟩ => ⟨S16777216x1, .i32⟩
  | .hbm, ⟨23, _⟩ => ⟨S16777216, .f32⟩
  | .hbm, ⟨24, _⟩ => ⟨S_, .f32⟩
  | .hbm, ⟨25, _⟩ => ⟨S16777216, .f32⟩
  | .hbm, ⟨26, _⟩ => ⟨S16777216, .i1⟩
  | .hbm, ⟨27, _⟩ => ⟨S_, .f32⟩
  | .hbm, ⟨28, _⟩ => ⟨S16777216, .f32⟩
  | .hbm, ⟨29, _⟩ => ⟨S16777216, .f32⟩
  | .hbm, ⟨30, _⟩ => ⟨S_, .f32⟩
  | .hbm, ⟨31, _⟩ => ⟨S16777216, .f32⟩
  | .hbm, ⟨32, _⟩ => ⟨S16777216, .f32⟩
  | .hbm, ⟨33, _⟩ => ⟨S16777216, .f32⟩
  | .hbm, ⟨34, _⟩ => ⟨S16777216, .f32⟩
  | .hbm, ⟨35, _⟩ => ⟨S16777216, .f32⟩
  | .hbm, ⟨36, _⟩ => ⟨S16777216, .f32⟩
  | .hbm, ⟨37, _⟩ => ⟨S_, .f32⟩
  | .hbm, ⟨38, _⟩ => ⟨S16777216, .f32⟩
  | .hbm, ⟨39, _⟩ => ⟨S16777216, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_cst_5 : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_cst_8 : Ref sig .tc := ⟨.hbm, 42, rfl⟩
abbrev main_v23 : Ref sig .tc := ⟨.hbm, 43, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  reducesTo_S16777216_S_d0 : S16777216.ReducesTo [0] S_
  h_S_ : 0 < S_.numel
  gather_S501_S16777216x1_S16777216_n_0_n_n_0_1_1_wf : GatherDims.WF S501 S16777216x1 S16777216 [] [0] [] [0] [] 1 ![1]

variable [Facts₀]

def gather_S501_S16777216x1_S16777216_n_0_n_n_0_1_1 : GatherDims S501 S16777216x1 S16777216 where
  offsetDims := []
  collapsedSliceDims := [0]
  operandBatchingDims := []
  startIndicesBatchingDims := []
  startIndexMap := [0]
  indexVectorDim := 1
  sliceSizes := ![1]
  wf := gather_S501_S16777216x1_S16777216_n_0_n_n_0_1_1_wf

class Facts : Prop extends Facts₀ where

variable [Facts]
-- ==== Proof.Body.lean ====
/-
  What one pass of the kernel's body leaves in the accumulator cell.

  The body reads the block of truths, the block of predictions and the four table rows, forms from them the vector of
  4096 row sums of the weighted squared errors, adds the total of that vector to what the cell held, and stores the sum.
  At the first point of each group of sixteen the cell is set to zero first and the zero is what is read back; at the
  other points the cell holds what the point before left. Both facts are read off the stores the two runs of the body
  found, for any float values.
-/
import proofs.«109607_j6184752906812_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Val

open Cert.KernelIdeal Cert.KernelIdeal.Gen

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl

/-- The vector of row sums the body forms from a block of predictions x0, a block of truths x1 and the table x2,
    whose four rows it loads one by one. -/
def rowSums (x0 x1 : Vec F S4096x128 .f32) (x2 : Vec F S4x128 .f32) : FVec F S4096 .f32 :=
  k0_pay12 (k0_pay3 x1) (k0_pay4 x0) (k0_pay6 x1) (k0_pay7 x1)
    (k0_pay8 (View.ld x2 (Rect.unit (s := S4x128) ![0, 0] S1x128.size inb_S4x128_S1x128_0_0)))
    (k0_pay9 (View.ld x2 (Rect.unit (s := S4x128) ![1, 0] S1x128.size inb_S4x128_S1x128_1_0)))
    (k0_pay10 (View.ld x2 (Rect.unit (s := S4x128) ![2, 0] S1x128.size inb_S4x128_S1x128_2_0)))
    (k0_pay11 (View.ld x2 (Rect.unit (s := S4x128) ![3, 0] S1x128.size inb_S4x128_S1x128_3_0)))

/-- At a point that is not the first of its group the cell, holding xo, ends holding xo plus the total of the row sums. -/
theorem out_later (c : Dev nD) (i : grid0.Coords) (a2 : Memref sig .tc .vmem S4096x128 .f32) (h2 : a2.IsWhole)
    (a3 : Memref sig .tc .vmem S4096x128 .f32) (h3 : a3.IsWhole) (a4 : Memref sig .tc .vmem S4x128 .f32) (h4 : a4.IsWhole)
    (a5 : Memref sig .tc .vmem S1x1x1 .f32) (h5 : a5.IsWhole) (hc : ¬cond0_0 i)
    (x0 x1 : Vec F S4096x128 .f32) (x2 : Vec F S4x128 .f32) (xo : Vec F S1x1x1 .f32) :
    out0_B_3 c i a2 h2 a3 h3 a4 h4 a5 h5 hc x0 x1 x2 xo = k0_pay1 (rowSums x0 x1 x2) xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero zeros3]
  simp only [View.readAt_eq_ld, h2.read_unread, h3.read_unread, h4.read_unread, h5.read_unread,
    View.ld_unit_zero (S := S4096x128) zeros2, View.ld_unit_zero (S := S1x1x1) zeros3]
  rfl

/-- At the first point of a group the cell is zeroed, the zero read back, and the total of the row sums added to it. -/
theorem out_first (c : Dev nD) (i : grid0.Coords) (a2 : Memref sig .tc .vmem S4096x128 .f32) (h2 : a2.IsWhole)
    (a3 : Memref sig .tc .vmem S4096x128 .f32) (h3 : a3.IsWhole) (a4 : Memref sig .tc .vmem S4x128 .f32) (h4 : a4.IsWhole)
    (a5 : Memref sig .tc .vmem S1x1x1 .f32) (h5 : a5.IsWhole) (hc : cond0_0 i)
    (x0 x1 : Vec F S4096x128 .f32) (x2 : Vec F S4x128 .f32) :
    out0_A_3 c i a2 h2 a3 h3 a4 h4 a5 h5 hc x0 x1 x2 = k0_pay1 (rowSums x0 x1 x2) k0_pay2 := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x1x1) zeros3, View.readCov_unit_zero (S := S1x1x1) _ zeros3]
  simp only [View.readAt_eq_ld, h2.read_unread, h3.read_unread, h4.read_unread,
    View.ld_unit_zero (S := S4096x128) zeros2]
  rfl

end Cert.KernelIdeal.Val

end
-- ==== Proof.Spec.lean ====
/-
  A weighted mean of squared errors with the weight looked up in a table of 501 entries.

  For a truth value t the bin is 500·t rounded toward zero and clipped into 0 … 500; the weight of the bin is 1 where
  the table entry lies below a threshold and the reciprocal of the entry otherwise; an element's term is
  weight · d · d · 100 with d = prediction − truth, and the result is the sum of the terms divided by their number.
  This module has the pieces that speak of no program: the bin and the fact that it is one of 0 … 500, what the two
  ways of reading the table (by the low seven bits within a row of 128 and the next two bits among four rows; by the
  whole position) have in common, and that squaring the absolute difference is squaring the difference.
-/
import Idealize.ShloMosaic.PureOps.Ideal
import Idealize.ShloMosaic.Lib.ValueIdx

noncomputable section

namespace Cert.WMse

open Idealize.ShloMosaic

/-- The bin of a truth value: 500·t rounded toward zero, clipped into 0 … 500. -/
def bin (t : Ideal .f32) : BitVec 32 :=
  IntOp.minsi 500#32 (IntOp.maxsi 0#32 (FloatOps.fptosi 32 (FloatOps.mulf t (FloatOps.ofBits (F := Ideal) .f32 0x43FA0000#32))))

/-- Clipping any word into 0 … 500 leaves one of the 501 words 0 … 500. -/
theorem clip_range (w : BitVec 32) : ∃ n : Fin 501, IntOp.minsi 500#32 (IntOp.maxsi 0#32 w) = BitVec.ofNat 32 n.val := by
  unfold IntOp.minsi IntOp.maxsi
  by_cases h0 : w.slt 0#32 = true
  · rw [if_pos h0]
    exact ⟨⟨0, by omega⟩, by decide⟩
  · rw [if_neg h0]
    by_cases h1 : (500#32).slt w = true
    · rw [if_pos h1]
      exact ⟨⟨500, by omega⟩, rfl⟩
    · rw [if_neg h1]
      simp only [BitVec.slt, decide_eq_true_eq, not_lt] at h0 h1
      have hw := BitVec.toInt_eq_toNat_cond w
      have h500 : (500#32 : BitVec 32).toInt = 500 := by decide
      have h00 : (0#32 : BitVec 32).toInt = 0 := by decide
      rw [h00] at h0
      rw [h500] at h1
      have hlt : w.toNat < 501 := by
        split at hw <;> omega
      exact ⟨⟨w.toNat, hlt⟩, by simp⟩

/-- So the bin of any truth value is the word of a number 0 … 500. -/
theorem bin_range (t : Ideal .f32) : ∃ n : Fin 501, bin t = BitVec.ofNat 32 n.val := clip_range _

/-- What the bit operations on the word of a number n ≤ 500 give: its low seven bits are n mod 128 (and not negative),
    bit 7 and "at least 256" say which of the four rows of 128 it lies in, and read whole it is n again (not negative,
    within the table). -/
theorem word_facts : ∀ n : Fin 501,
    IntOp.cmpi .slt (IntOp.andi (BitVec.ofNat 32 n.val) 127#32) 0#32 = 0#1
    ∧ (IntOp.andi (BitVec.ofNat 32 n.val) 127#32).toNat % 128 = n.val % 128
    ∧ IntOp.cmpi .ne (IntOp.andi (IntOp.shrsi .vector (BitVec.ofNat 32 n.val) 7#32) 1#32) 0#32
        = BitVec.ofBool (decide ((n.val / 128) % 2 = 1))
    ∧ IntOp.cmpi .sge (IntOp.shrsi .vector (BitVec.ofNat 32 n.val) 7#32) 2#32 = BitVec.ofBool (decide (2 ≤ n.val / 128))
    ∧ IntOp.cmpi .slt (BitVec.ofNat 32 n.val) 0#32 = 0#1
    ∧ min (BitVec.ofNat 32 n.val).toInt.toNat 500 = n.val := by
  decide +kernel

/-- Reading a table of four rows of 128 the way the kernel does: the low seven bits of the position pick the lane in each
    row (a negative lane number would be raised by 128), bit 7 chooses within each pair of rows, "at least two" between
    the pairs. -/
def pick {α : Type} (T : Fin 4 → Fin 128 → α) (b : BitVec 32) : α :=
  let lo := IntOp.andi b 127#32
  let ch := IntOp.shrsi .vector b 7#32
  let j := Scalar.select (IntOp.cmpi .slt lo 0#32) (IntOp.addi lo 128#32) lo
  let l : Fin 128 := ⟨j.toNat % 128, Nat.mod_lt _ (by omega)⟩
  let odd := IntOp.cmpi .ne (IntOp.andi ch 1#32) 0#32
  Scalar.select (IntOp.cmpi .sge ch 2#32) (Scalar.select odd (T 3 l) (T 2 l)) (Scalar.select odd (T 1 l) (T 0 l))

/-- At the word of n ≤ 500 that reading is entry n mod 128 of row n / 128. -/
theorem pick_eq {α : Type} (T : Fin 4 → Fin 128 → α) (n : Fin 501) :
    pick T (BitVec.ofNat 32 n.val)
      = T ⟨n.val / 128, by have := n.isLt; omega⟩ ⟨n.val % 128, Nat.mod_lt _ (by omega)⟩ := by
  obtain ⟨f1, f2, f3, f4, -, -⟩ := word_facts n
  unfold pick
  simp only [f1, f3, f4]
  have hsel : Scalar.select (0#1) (IntOp.addi (IntOp.andi (BitVec.ofNat 32 n.val) 127#32) 128#32)
      (IntOp.andi (BitVec.ofNat 32 n.val) 127#32) = IntOp.andi (BitVec.ofNat 32 n.val) 127#32 := by
    unfold Scalar.select; rw [if_neg (by decide)]
  simp only [hsel, f2]
  have hn := n.isLt
  have hq : n.val / 128 < 4 := by omega
  unfold Scalar.select
  rcases (by omega : n.val / 128 = 0 ∨ n.val / 128 = 1 ∨ n.val / 128 = 2 ∨ n.val / 128 = 3) with h | h | h | h <;>
    simp [h] <;> rfl

/-- The bin as a number: below 501. -/
theorem bin_lt (t : Ideal .f32) : (bin t).toNat < 501 := by
  obtain ⟨n, hn⟩ := bin_range t
  rw [hn, BitVec.toNat_ofNat]
  have := n.isLt
  omega

/-- The bin of a truth value as one of the 501 positions of the table. -/
def binN (t : Ideal .f32) : Fin 501 := ⟨(bin t).toNat, bin_lt t⟩

/-- The bin's word is the word of that position. -/
theorem bin_eq (t : Ideal .f32) : bin t = BitVec.ofNat 32 (binN t).val := by
  show bin t = BitVec.ofNat 32 (bin t).toNat
  simp

/-- The weight of a table entry: 1 where the entry lies below the threshold word, else the entry's reciprocal. -/
def invw (x : Ideal .f32) : Ideal .f32 :=
  Scalar.select (FloatOps.cmpf .olt x (FloatOps.ofBits (F := Ideal) .f32 0x3727C5AC#32))
    (FloatOps.ofBits (F := Ideal) .f32 0x3F800000#32) (FloatOps.hostDivf (FloatOps.ofBits (F := Ideal) .f32 0x3F800000#32) x)

/-- One element's term: weight · d · d · 100 with d the prediction minus the truth. -/
def term (w p t : EReal) : EReal := w * (p - t) * (p - t) * Ideal.ofBits .f32 0x42C80000#32

/-- The kernel's reading of the table at a truth's bin is the table's entry (bin / 128, bin mod 128). -/
theorem pick_bin {α : Type} (T : Fin 4 → Fin 128 → α) (t : Ideal .f32) :
    pick T (bin t) = T ⟨(binN t).val / 128, by have := (binN t).isLt; omega⟩ ⟨(binN t).val % 128, Nat.mod_lt _ (by omega)⟩ := by
  rw [bin_eq, pick_eq]

/-- Reading the whole position: the bin is not negative, so it is not wrapped around, and clamped into the table it is
    itself. -/
theorem whole_bin (t : Ideal .f32) :
    min (Scalar.select (IntOp.cmpi .slt (bin t) 0#32) (IntOp.addi (bin t) 501#32) (bin t)).toInt.toNat 500 = (binN t).val := by
  obtain ⟨-, -, -, -, f5, f6⟩ := word_facts (binN t)
  rw [bin_eq, f5]
  unfold Scalar.select
  rw [if_neg (by decide)]
  exact f6

/-- The square of the absolute difference is the square of the difference, whatever the weight and on all extended
    reals: two sign changes cancel. -/
theorem abs_sq (w d : EReal) : w * max d (-d) * max d (-d) = w * d * d := by
  rcases le_total d (-d) with h | h
  · rw [max_eq_right h, mul_neg, mul_neg, neg_mul, neg_neg]
  · rw [max_eq_left h]

end Cert.WMse

end
-- ==== Proof.LibRowReduce.lean ====
/-
  Reductions along the rows of a matrix, at the ideal values: a reduction over axis 1 of an a × b array, read
  at row p. A maximum that starts from negative infinity is the supremum of the row's entries (the order of
  folding does not matter and the start is the least element); a sum that starts from zero is the sum of the
  row's entries. For any extents.
-/
import Idealize.ShloMosaic.PureOps.Ideal.Laws
import Idealize.ShloMosaic.Lib.ValueIdx

noncomputable section

namespace Cert.LibRowReduce

open Idealize.ShloMosaic Idealize.ShloMosaic.ValueIdx
open scoped BigOperators

/-- The f32 word of negative infinity denotes the least extended real. -/
theorem ofBits_neg_inf : Ideal.ofBits .f32 0xFF800000#32 = (⊥ : EReal) := by simp [Ideal.ofBits, Ideal.ieee]

/-- The coordinate inserted on axis 1 of a row index. -/
theorem lift_row {a b : Nat} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- The maximum of each row from negative infinity, at row p: the supremum over the columns. -/
theorem rowMax_apply {a b : Nat} (y : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ y 0xFF800000#32 h hφ hacc (ix1 p)
      = (Finset.univ : Finset (Fin b)).sup fun k => y (ix2 p k) := by
  refine (Ideal.multiReduction_maximumf_single y _ h hφ hacc (ix1 p)).trans ?_
  rw [show FloatOps.ofBits (F := Ideal) .f32 0xFF800000#32 = (⊥ : EReal) from ofBits_neg_inf]
  exact Finset.sup_congr rfl fun k _ => congrArg y (lift_row h p k)

/-- The sum of each row from zero, at row p: the sum over the columns. -/
theorem rowSum_apply {a b : Nat} (y : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ y 0x00000000#32 h hφ hacc (ix1 p)
      = ∑ k : Fin b, y (ix2 p k) := by
  refine (Ideal.multiReduction_add_single y _ h hφ hacc (ix1 p)).trans ?_
  exact Finset.sum_congr rfl fun k _ => congrArg y (lift_row h p k)

end Cert.LibRowReduce
-- ==== Proof.LibColSum.lean ====
/-
  Sums down the columns of a matrix, at the ideal values: a reduction by addition over axis 0 of an a × b array, from
  zero, read at column j, is the sum over the rows of the entries (k, j); and the same sum kept as a one-row matrix,
  read at (0, j). For any extents. (The companion of a row reduction, for kernels that keep the reduced axis on the
  sublanes: features down the rows, pixels along the columns.)
-/
import Idealize.ShloMosaic.PureOps.Ideal.Laws
import Idealize.ShloMosaic.Lib.ValueIdx
import Idealize.ShloMosaic.Lib.ValueLayout

noncomputable section

namespace Cert.LibColSum

open Idealize.ShloMosaic Idealize.ShloMosaic.ValueIdx
open scoped BigOperators

/-! ## Sums down the columns of a matrix -/

/-- The coordinate inserted on axis 0 of a column index. -/
theorem lift_col {a b : Nat} (h : (⟨2, ![a, b]⟩ : Shape).Reduces [0] ⟨1, ![b]⟩) (j : Fin b) (k : Fin a) :
    h.lift (ix1 j) k = ix2 k j := by
  funext c; apply Fin.ext
  match c with
  | ⟨0, _⟩ => rfl
  | ⟨1, _⟩ => rfl

/-- The sum of each column from zero, at column j: the sum over the rows. -/
theorem colSum_apply {a b : Nat} (y : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ y 0x00000000#32 h hφ hacc (ix1 j) = ∑ k : Fin a, y (ix2 k j) := by
  refine (Ideal.multiReduction_add_single y _ h hφ hacc (ix1 j)).trans ?_
  exact Finset.sum_congr rfl fun k _ => congrArg y (lift_col h j k)

/-- A column sum kept as a one-row matrix, at (0, j). -/
theorem colSumRow_apply {a b : Nat} (y : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ)
    (hc : (⟨1, ![b]⟩ : Shape).ShapeCasts ⟨2, ![1, b]⟩) (u : Fin 1) (j : Fin b) :
    shapeCast ⟨2, ![1, b]⟩ (multiReduction .add [0] ⟨1, ![b]⟩ y 0x00000000#32 h hφ hacc) hc (ix2 u j)
      = ∑ k : Fin a, y (ix2 k j) :=
  (shapeCast_a_1a_apply _ hc u j).trans (colSum_apply y h hφ hacc j)

end Cert.LibColSum

end
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.LibLaneGather.lean ====
/-
  A lane gather read at an index: along axis 1 of an a × b array, the gather with an array of 32-bit positions reads,
  at (p, q), the entry of row p at lane "position (p, q), read unsigned, modulo b" — whatever the positions are.
  Stated for any element type and any extents.
-/
import Idealize.ShloMosaic.PureOps.Vector
import Idealize.ShloMosaic.Lib.ValueIdx

namespace Cert.LibLaneGather

open Idealize.ShloMosaic Idealize.ShloMosaic.ValueIdx

/-- Entry (p, q) of a gather along axis 1: row p's entry at lane "position mod b". -/
theorem gather_axis1_apply {α : Type} {a b : Nat} (x : (⟨2, ![a, b]⟩ : Shape).Idx → α) (idx : IVec ⟨2, ![a, b]⟩ 32)
    (p : Fin a) (q : Fin b) :
    dynamicGather (s := ⟨2, ![a, b]⟩) 1 x idx (ix2 p q)
      = x (ix2 p ⟨(idx (ix2 p q)).toNat % b, Nat.mod_lt _ (Fin.pos q)⟩) := by
  unfold dynamicGather
  refine congrArg x (funext fun c => ?_)
  match c with
  | ⟨0, _⟩ => rfl
  | ⟨1, _⟩ => rfl

end Cert.LibLaneGather
-- ==== Proof.Payload.lean ====
/-
  The body's arithmetic at the ideal values, read at an index.

  Row p of a block contributes the sum over its 128 lanes of weight · d · d · 100, where d is prediction minus truth and
  the weight is read from the four table rows by the bin of the truth value: the low seven bits of the bin choose the
  lane, the next two bits the row. The cell then gains the sum of the 4096 row sums.
-/
import proofs.«109607_j6184752906812_2_alg».proof.Proof.Body
import proofs.«109607_j6184752906812_2_alg».proof.Proof.Spec
import proofs.«109607_j6184752906812_2_alg».proof.Proof.LibRowReduce
import proofs.«109607_j6184752906812_2_alg».proof.Proof.LibColSum
import proofs.«109607_j6184752906812_2_alg».proof.Proof.LibKeepdims
import proofs.«109607_j6184752906812_2_alg».proof.Proof.LibLaneGather
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx
open scoped BigOperators

namespace Cert.KernelIdeal.Val

open Cert.KernelIdeal Cert.KernelIdeal.Gen

/-- A lane gather along axis 1 of a 4096 × 128 array reads, at (p, q), lane "index (p, q) mod 128" of row p. -/
theorem gather_lane {α : Type} (x : S4096x128.Idx → α) (idx : IVec S4096x128 32) (p : Fin 4096) (q : Fin 128) :
    dynamicGather 1 x idx (ix2 p q) = x (ix2 p ⟨(idx (ix2 p q)).toNat % 128, Nat.mod_lt _ (by omega)⟩) :=
  Cert.LibLaneGather.gather_axis1_apply x idx p q

/-- The weight the body reads at (p, q) from four arrays holding the table's rows spread over the block: by the lane
    number v17 (raised by 128 if negative) within each, by the row number v15 among them. -/
def chosen (v15 v17 : IVec S4096x128 32) (v22 v27 v32 v37 : FVec Ideal S4096x128 .f32) (p : Fin 4096) (q : Fin 128) : EReal :=
  let j := Scalar.select (IntOp.cmpi .slt (v17 (ix2 p q)) 0#32) (IntOp.addi (v17 (ix2 p q)) 128#32) (v17 (ix2 p q))
  let l : Fin 128 := ⟨j.toNat % 128, Nat.mod_lt _ (by omega)⟩
  let odd := IntOp.cmpi .ne (IntOp.andi (v15 (ix2 p q)) 1#32) 0#32
  Scalar.select (IntOp.cmpi .sge (v15 (ix2 p q)) 2#32) (Scalar.select odd (v37 (ix2 p l)) (v32 (ix2 p l)))
    (Scalar.select odd (v27 (ix2 p l)) (v22 (ix2 p l)))

/-- Row p's sum: over the lanes, the chosen weight times the squared difference times 100. -/
theorem pay12_apply (v4 v6 : FVec Ideal S4096x128 .f32) (v15 v17 : IVec S4096x128 32)
    (v22 v27 v32 v37 : FVec Ideal S4096x128 .f32) (p : Fin 4096) :
    k0_pay12 v4 v6 v15 v17 v22 v27 v32 v37 (ix1 p) = ∑ q : Fin 128,
      chosen v15 v17 v22 v27 v32 v37 p q * (v6 (ix2 p q) - v4 (ix2 p q)) * (v6 (ix2 p q) - v4 (ix2 p q))
        * Ideal.ofBits .f32 0x42C80000#32 := by
  unfold k0_pay12
  dsimp only
  refine (Cert.LibRowReduce.rowSum_apply _ _ _ _ p).trans (Finset.sum_congr rfl fun q _ => ?_)
  simp only [shapeCast_shapeCast, mulf_apply, subf_apply, select_apply, gather_lane, broadcast_apply]
  rfl

/-- The body's copies of its two blocks are the blocks. -/
theorem pay3_eq (x : Vec Ideal S4096x128 .f32) : k0_pay3 x = x := shapeCast_self _ _
theorem pay4_eq (x : Vec Ideal S4096x128 .f32) : k0_pay4 x = x := shapeCast_self _ _

/-- The clipped position the body computes from a truth value is its bin. -/
theorem pay5_apply (x1 : Vec Ideal S4096x128 .f32) (i : S4096x128.Idx) : k0_pay5 x1 i = WMse.bin (x1 i) := by
  unfold k0_pay5
  rw [pay3_eq]
  rfl

/-- Its row number … -/
theorem pay6_apply (x1 : Vec Ideal S4096x128 .f32) (i : S4096x128.Idx) :
    k0_pay6 x1 i = IntOp.shrsi .vector (WMse.bin (x1 i)) 7#32 := by
  unfold k0_pay6
  show IntOp.shrsi .vector (k0_pay5 x1 i) 7#32 = _
  rw [pay5_apply]

/-- … and its lane number. -/
theorem pay7_apply (x1 : Vec Ideal S4096x128 .f32) (i : S4096x128.Idx) :
    k0_pay7 x1 i = IntOp.andi (WMse.bin (x1 i)) 127#32 := by
  unfold k0_pay7
  show IntOp.andi (k0_pay5 x1 i) 127#32 = _
  rw [pay5_apply]

/-- A table row spread over the block reads, at (p, q), the row's lane q. -/
theorem spread_apply (row : Vec Ideal S1x128 .f32) (h1 : S1x128.ShapeCasts S128) (h2 : S128.ShapeCasts S1x128)
    (h3 : S1x128.ShapeCasts S1x128) (hb : S1x128.Broadcasts S4096x128) (p : Fin 4096) (q : Fin 128) :
    broadcastTo S4096x128 (shapeCast S1x128 (shapeCast S1x128 (shapeCast S128 row h1) h2) h3) hb (ix2 p q)
      = row (ix2 0 q) := by
  rw [shapeCast_self, shapeCast_shapeCast]
  exact broadcastTo_1b_ab_apply row hb p q

theorem pay8_apply (row : Vec Ideal S1x128 .f32) (p : Fin 4096) (q : Fin 128) : k0_pay8 row (ix2 p q) = row (ix2 0 q) := by
  unfold k0_pay8; exact spread_apply row _ _ _ _ p q
theorem pay9_apply (row : Vec Ideal S1x128 .f32) (p : Fin 4096) (q : Fin 128) : k0_pay9 row (ix2 p q) = row (ix2 0 q) := by
  unfold k0_pay9; exact spread_apply row _ _ _ _ p q
theorem pay10_apply (row : Vec Ideal S1x128 .f32) (p : Fin 4096) (q : Fin 128) : k0_pay10 row (ix2 p q) = row (ix2 0 q) := by
  unfold k0_pay10; exact spread_apply row _ _ _ _ p q
theorem pay11_apply (row : Vec Ideal S1x128 .f32) (p : Fin 4096) (q : Fin 128) : k0_pay11 row (ix2 p q) = row (ix2 0 q) := by
  unfold k0_pay11; exact spread_apply row _ _ _ _ p q

/-- Row r of the table, loaded as a one-row block from row offset off = r, reads the table's entry (r, q) at its lane q. -/
theorem table_row (x2 : Vec Ideal S4x128 .f32) (off : Nat)
    (inb : ∀ a, (![off, 0] : Fin 2 → Nat) a + S1x128.size a ≤ S4x128.size a) (q : Fin 128) (r : Fin 4) (hr : r.val = off) :
    View.ld x2 (Rect.unit (s := S4x128) ![off, 0] S1x128.size inb) (ix2 0 q) = x2 (ix2 r q) := by
  show x2 _ = x2 _
  refine congrArg x2 (funext fun a => Fin.ext ?_)
  match a with
  | ⟨0, _⟩ => show off + 1 * 0 = r.val; omega
  | ⟨1, _⟩ => show 0 + 1 * q.val = q.val; omega

/-- The weight chosen at (p, q) from the four spread rows, when each holds its table row, is the table read at the bin
    of the truth value the way the kernel reads it. -/
theorem chosen_eq (x1 : Vec Ideal S4096x128 .f32) (x2 : Vec Ideal S4x128 .f32) (R0 R1 R2 R3 : Vec Ideal S1x128 .f32)
    (h0 : ∀ q, R0 (ix2 0 q) = x2 (ix2 0 q)) (h1 : ∀ q, R1 (ix2 0 q) = x2 (ix2 1 q))
    (h2 : ∀ q, R2 (ix2 0 q) = x2 (ix2 2 q)) (h3 : ∀ q, R3 (ix2 0 q) = x2 (ix2 3 q)) (p : Fin 4096) (q : Fin 128) :
    chosen (k0_pay6 x1) (k0_pay7 x1) (k0_pay8 R0) (k0_pay9 R1) (k0_pay10 R2) (k0_pay11 R3) p q
      = WMse.pick (fun r l => x2 (ix2 r l)) (WMse.bin (x1 (ix2 p q))) := by
  unfold chosen WMse.pick
  simp only [pay6_apply, pay7_apply, pay8_apply, pay9_apply, pay10_apply, pay11_apply, h0, h1, h2, h3]

/-- Row p of the block's sums, over the block's truths x1, predictions x0 and the table x2: over the lanes, the table
    read at the truth's bin, times the squared difference, times 100. -/
theorem rowSums_apply (x0 x1 : Vec Ideal S4096x128 .f32) (x2 : Vec Ideal S4x128 .f32) (p : Fin 4096) :
    rowSums x0 x1 x2 (ix1 p) = ∑ q : Fin 128,
      WMse.pick (fun r l => x2 (ix2 r l)) (WMse.bin (x1 (ix2 p q))) * (x0 (ix2 p q) - x1 (ix2 p q))
        * (x0 (ix2 p q) - x1 (ix2 p q)) * Ideal.ofBits .f32 0x42C80000#32 := by
  unfold rowSums
  rw [pay12_apply]
  refine Finset.sum_congr rfl fun q _ => ?_
  rw [pay3_eq, pay4_eq]
  rw [chosen_eq x1 x2 _ _ _ _ (fun q => table_row x2 0 _ q 0 rfl) (fun q => table_row x2 1 _ q 1 rfl)
    (fun q => table_row x2 2 _ q 2 rfl) (fun q => table_row x2 3 _ q 3 rfl) p q]

/-- The cell gains the total of the row sums. -/
theorem cell_apply (v84 : FVec Ideal S4096 .f32) (xo : Vec Ideal S1x1x1 .f32) (y : S1x1x1.Idx) :
    k0_pay1 v84 xo y = xo y + ∑ r : Fin 4096, v84 (ix1 r) := by
  unfold k0_pay1
  dsimp only
  rw [addf_apply, shapeCast_self]
  congr 1
  rw [shapeCast_apply _ _ y (ix2 (0 : Fin 1) (0 : Fin 1))
      ((Nat.lt_one_iff.mp (show _ < 1 from (S1x1.rowMajor (ix2 (0 : Fin 1) (0 : Fin 1))).isLt)).trans
        (Nat.lt_one_iff.mp (show _ < 1 from (S1x1x1.rowMajor y).isLt)).symm),
    shapeCast_apply _ _ (ix2 (0 : Fin 1) (0 : Fin 1)) (ix1 (0 : Fin 1))
      ((Nat.lt_one_iff.mp (show _ < 1 from (S1.rowMajor (ix1 (0 : Fin 1))).isLt)).trans
        (Nat.lt_one_iff.mp (show _ < 1 from (S1x1.rowMajor (ix2 (0 : Fin 1) (0 : Fin 1))).isLt)).symm)]
  refine (Cert.LibColSum.colSum_apply _ _ _ _ (0 : Fin 1)).trans (Finset.sum_congr rfl fun k _ => ?_)
  exact shapeCast_a_a1_apply v84 _ k 0

/-- The cell's zero is the real number zero. -/
theorem pay2_apply (y : S1x1x1.Idx) : k0_pay2 (F := Ideal) y = 0 := Ideal.ofBits_zero_f32

end Cert.KernelIdeal.Val

end
-- ==== Proof.Chain.lean ====
/-
  The accumulator cell across the grid.

  The grid's 32 points run in two groups of sixteen; within a group the cell is zeroed at the first point and gains each
  point's total, so after point n it holds the sum of the totals of the points of n's group up to n. In particular at
  the last point of group g it holds the sum of the sixteen totals of the group.
-/
import proofs.«109607_j6184752906812_2_alg».proof.Proof.Payload

set_option maxRecDepth 16384

noncomputable section

open Idealize.ShloMosaic Idealize.ShloMosaic.TcCoe Idealize.ShloMosaic.ValueIdx Idealize.SL.Sem
open scoped BigOperators

namespace Cert.KernelIdeal.Val

open Cert.KernelIdeal Cert.KernelIdeal.Gen

variable (m : (ℓ : Loc nD τ sig) → Buf (Elt Ideal) ℓ)

/-- Point t's total: the sum of the 4096 row sums of its blocks. -/
def gain (c : Dev nD) (t : Fin cfg0.N) : EReal :=
  ∑ r : Fin 4096, rowSums (F := Ideal) (iblk m c 0 t) (iblk m c 1 t) (iblk m c 2 t) (ix1 r)

/-- The same by the point's number, zero past the grid. -/
def gainAt (c : Dev nD) (j : ℕ) : EReal := if h : j < cfg0.N then gain m c ⟨j, h⟩ else 0

theorem gainAt_of_lt (c : Dev nD) (j : ℕ) (h : j < cfg0.N) : gainAt m c j = gain m c ⟨j, h⟩ := dif_pos h

/-- After point n the cell holds the totals of n's group up to n, added up. -/
theorem outsAt_eq (c : Dev nD) : ∀ (n : ℕ) (h : n < cfg0.N) (y : S1x1x1.Idx),
    outsAt0 m c n h y = ∑ j ∈ Finset.range (n % 16 + 1), gainAt m c (n - n % 16 + j)
  | 0, h, y => by
    rw [outsAt0_A m c ⟨0, h⟩ rfl, out_first, cell_apply, pay2_apply, zero_add]
    show _ = ∑ j ∈ Finset.range 1, gainAt m c (0 + j)
    rw [Finset.sum_range_one, gainAt_of_lt m c _ h]
    rfl
  | n + 1, h, y => by
    by_cases h0 : (n + 1) % 16 = 0
    · rw [outsAt0_A m c ⟨n + 1, h⟩ h0, out_first, cell_apply, pay2_apply, zero_add, h0, Finset.sum_range_one]
      show _ = gainAt m c (n + 1)
      rw [gainAt_of_lt m c _ h]
      rfl
    · rw [outsAt0_B m c ⟨n + 1, h⟩ h0, out_later, cell_apply]
      show outsAt0 m c n _ _ + _ = _
      rw [outsAt_eq c n]
      have e1 : (n + 1) % 16 = n % 16 + 1 := by omega
      have e2 : n + 1 - (n % 16 + 1) = n - n % 16 := by omega
      have e3 : n - n % 16 + (n % 16 + 1) = n + 1 := by omega
      rw [e1, e2, Finset.sum_range_succ _ (n % 16 + 1), e3, gainAt_of_lt m c _ h]
      rfl

/-- At the last point of a group the cell holds the group's sixteen totals, added up. -/
theorem outsAt_last (c : Dev nD) (t : Fin cfg0.N) (h15 : t.val % 16 = 15) (y : S1x1x1.Idx) :
    outsAt0 m c t.val t.isLt y = ∑ j ∈ Finset.range 16, gainAt m c (16 * (t.val / 16) + j) := by
  rw [outsAt_eq m c t.val t.isLt y, h15]
  have e : t.val - 15 = 16 * (t.val / 16) := by omega
  rw [e]

end Cert.KernelIdeal.Val

end
-- ==== Proof.Final.lean ====
/-
  The partial sums the region leaves, and the kernel's result from them.

  The output array has one cell per group of sixteen grid points; group g's cell is written back once, after the
  group's last point, holding the group's sixteen totals added up. The host then adds the two cells to zero and divides
  by the number of elements.
-/
import proofs.«109607_j6184752906812_2_alg».proof.Proof.Chain
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.Val

open Cert.KernelIdeal Cert.KernelIdeal.Gen

variable (m : (ℓ : Loc nD τ sig) → Buf (Elt Ideal) ℓ) (ρ : Dev nD → PrngReg)

/-- Group g's sixteen totals, added up. -/
def groupSum (c : Dev nD) (g : ℕ) : EReal := ∑ j ∈ Finset.range 16, gainAt m c (16 * g + j)

/-- The array of partial sums: cell (g, 0, 0) holds group g's sum. -/
abbrev partials (c : Dev nD) : Buf (Elt Ideal) ((c : Thread nD τ).loc main_v9) := fun i => groupSum m c (i 0).val

/-- The output's block index at point t is its group, t / 16 (decided over the grid). -/
theorem out_index : ∀ t : Fin cfg0.N, win0_3.index t (0 : Fin 3) = t.val / 16 ∧ win0_3.index t (1 : Fin 3) = 0
    ∧ win0_3.index t (2 : Fin 3) = 0 :=
  (by decide +kernel : ∀ t : Fin grid0.N, _)

/-- What a group's last point writes back is the group's cell of the partial sums. -/
theorem flushed_eq (c : Dev nD) (t : Fin cfg0.N) (hf : (cfg0.win 3).flush t = true) :
    (dats m 0 c).flushed 3 t = ((cfg0.win 3).blk t).view.read (Elt Ideal) (partials m c) := by
  have h15 : t.val % 16 = 15 := (flush0_3 t).mp hf
  show (cfg0.win 3).cut (grid0.coords t) ((dats m 0 c).after 3 t) = _
  rw [after0_3]
  funext y
  show outsAt0 m c t.val t.isLt _ = partials m c (((cfg0.win 3).blk t).view.emb y)
  rw [outsAt_last m c t h15]
  show groupSum m c (t.val / 16) = groupSum m c ((((cfg0.win 3).blk t).view.emb y) 0).val
  congr 1
  show t.val / 16 = win0_3.index t (0 : Fin 3) * 1 + 1 * (y 0).val
  have e := (out_index t).1
  have hy : (y 0).val < 1 := (y 0).isLt
  omega

/-- A cell of the output array lies in point t's block iff each coordinate is in the block's range. -/
theorem mem_blk (t : Fin cfg0.N) (i : S2x1x1.Idx) :
    i ∈ ((cfg0.win 3).blk t).view.set ↔ ∀ a : Fin 3, win0_3.index t a * S1x1x1.size a ≤ (i a).val
      ∧ (i a).val < win0_3.index t a * S1x1x1.size a + S1x1x1.size a := by
  show i ∈ ((View.whole main_v9).slice (win0_3.rect t)).set ↔ _
  rw [View.set_slice_whole, Rect.mem_set_unit]
  exact Iff.rfl

/-- So after the region the output array is the array of partial sums: cell g is covered by the last point of group g. -/
theorem final (c : Dev nD) : (dats m 0 c).arrAt 3 cfg0.N = partials m c :=
  (dats m 0 c).arrAt_eq_of_cover 3 (partials m c) (flushed_eq m c) fun i => by
    have hN : cfg0.N = 32 := N_0
    have hi0 : (i 0).val < 2 := (i 0).isLt
    have hi1 : (i 1).val < 1 := (i 1).isLt
    have hi2 : (i 2).val < 1 := (i 2).isLt
    have ht : 16 * (i 0).val + 15 < cfg0.N := by omega
    refine ⟨⟨16 * (i 0).val + 15, ht⟩, (flush0_3 _).mpr (by show (16 * (i 0).val + 15) % 16 = 15; omega), ?_⟩
    rw [mem_blk]
    obtain ⟨e0, e1, e2⟩ := out_index ⟨16 * (i 0).val + 15, ht⟩
    have e0' : win0_3.index ⟨16 * (i 0).val + 15, ht⟩ (0 : Fin 3) = (i 0).val := by rw [e0]; show (16 * (i 0).val + 15) / 16 = _; omega
    intro a
    match a with
    | ⟨0, _⟩ =>
      show win0_3.index ⟨16 * (i 0).val + 15, ht⟩ (0 : Fin 3) * 1 ≤ (i 0).val
        ∧ (i 0).val < win0_3.index ⟨16 * (i 0).val + 15, ht⟩ (0 : Fin 3) * 1 + 1
      omega
    | ⟨1, _⟩ =>
      show win0_3.index ⟨16 * (i 0).val + 15, ht⟩ (1 : Fin 3) * 1 ≤ (i 1).val
        ∧ (i 1).val < win0_3.index ⟨16 * (i 0).val + 15, ht⟩ (1 : Fin 3) * 1 + 1
      omega
    | ⟨2, _⟩ =>
      show win0_3.index ⟨16 * (i 0).val + 15, ht⟩ (2 : Fin 3) * 1 ≤ (i 2).val
        ∧ (i 2).val < win0_3.index ⟨16 * (i 0).val + 15, ht⟩ (2 : Fin 3) * 1 + 1
      omega

/-- The kernel's result from the partial sums: the cells added to zero, the sum divided by the word of the number of
    elements. -/
def result (c : Dev nD) : Buf (Elt Ideal) ((c : Thread nD τ).loc main_v11) :=
  Host.divf (Host.reduceAdd (partials m c) (constant (F := Ideal) S_ .f32 0x00000000#32) reducesTo_S2x1x1_S_d0_1_2 h_S_)
    (constant (F := Ideal) S_ .f32 0x4B800000#32)

/-- The host's last lines compute it from the output array as the region leaves it. -/
theorem tail_eq (c : Dev nD) : Pipeline.afterTail₀ cfgs (dats m) 0 (V0 m) [hostOps1] c main_v11 = result m c := by
  unfold Pipeline.afterTail₀
  show StableHlo.after hostOps1 _ (Proc.devRef .tc main_v11) = _
  after_results
  have e : Pipeline.withArrays (cfgs 0).spec c (V0 m c) (fun w => (dats m 0 c).arrAt w (cfgs 0).N)
      (Proc.devRef .tc main_v9) = partials m c :=
    (Pipeline.withArrays_arr spec0 launch0.win.arr_inj c _ _ 3).trans (final m c)
  rw [e]
  rfl

/-- The kernel's run, read: every weakly fair execution ends with the result at that value and the arguments as they
    were. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v11 (Pipeline.mem_restRefs_of main_v11 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Val

end
-- ==== Proof.Blocks.lean ====
/-
  The blocks the body reads, in terms of the kernel's arguments.

  Before the region the host lays the predictions and the truths out as 131072 rows of 128 and builds the table: the
  weights of the 501 entries, followed by eleven ones, laid out as 4 rows of 128. Point t's blocks of predictions and
  truths are rows 4096·t … 4096·t + 4095; every point reads the whole table. So entry (r, q) of point t's block is
  element (4096·t + r)·128 + q of the argument, and the table at (n / 128, n mod 128) is the weight of entry n.
-/
import proofs.«109607_j6184752906812_2_alg».proof.Proof.Gen.KernelIdeal.Frame
import proofs.«109607_j6184752906812_2_alg».proof.Proof.Spec
import Idealize.ShloMosaic.Lib.Pipeline.Value
import Idealize.ShloMosaic.Lib.StableHlo.Run
import Idealize.ShloMosaic.Lib.KernelVsHost
import Idealize.ShloMosaic.Lib.Tactic
import Idealize.ShloMosaic.Lib.ValueIdx

set_option maxRecDepth 16384

noncomputable section

open Idealize.ShloMosaic Idealize.ShloMosaic.TcCoe Idealize.ShloMosaic.ValueIdx Idealize.SL.Sem

namespace Cert.KernelIdeal.Val

open Cert.KernelIdeal Cert.KernelIdeal.Gen

variable (m : (ℓ : Loc nD τ sig) → Buf (Elt Ideal) ℓ)

/-- The table the host builds from the weights w: each entry's weight, eleven ones after them, as 4 rows of 128. -/
def tableOf (w : S501.Idx → Ideal .f32) : S4x128.Idx → Ideal .f32 :=
  shapeCast S4x128
    (pad S512 ![0] ![11] ![0]
      (select (cmpf .olt w (broadcastInDim S501 ![] bcast_S_S501 (constant S_ .f32 0x3727C5AC#32)))
        (broadcastInDim S501 ![] bcast_S_S501 (constant S_ .f32 0x3F800000#32))
        (Host.divf (broadcastInDim S501 ![] bcast_S_S501 (constant S_ .f32 0x3F800000#32)) w))
      (id (constant S_ .f32 0x3F800000#32)) pads_S501_S512_0110 h_S_)
    shapeCasts_S512_S4x128

/-- The region finds the predictions as rows of 128 … -/
theorem V_pred (c : Dev nD) : (V m c main_v6 : S131072x128.Idx → Ideal .f32)
    = shapeCast S131072x128 (m ((c : Thread nD τ).loc main_arg0)) shapeCasts_S16777216_S131072x128 := by
  dsimp only [Gen.V, Gen.V0]
  simp only [hostOps0, hostOps0_1, hostOps0_2, hostOps0_3, hostOps0_4, List.flatten_cons, List.flatten_nil, List.append_nil,
    List.cons_append, List.nil_append]
  after_results
  rfl

/-- … the truths likewise … -/
theorem V_truth (c : Dev nD) : (V m c main_v7 : S131072x128.Idx → Ideal .f32)
    = shapeCast S131072x128 (m ((c : Thread nD τ).loc main_arg1)) shapeCasts_S16777216_S131072x128 := by
  dsimp only [Gen.V, Gen.V0]
  simp only [hostOps0, hostOps0_1, hostOps0_2, hostOps0_3, hostOps0_4, List.flatten_cons, List.flatten_nil, List.append_nil,
    List.cons_append, List.nil_append]
  after_results
  rfl

/-- … and the table built from the weights. -/
theorem V_table (c : Dev nD) : (V m c main_v8 : S4x128.Idx → Ideal .f32)
    = tableOf (m ((c : Thread nD τ).loc main_arg2)) := by
  dsimp only [Gen.V, Gen.V0]
  simp only [hostOps0, hostOps0_1, hostOps0_2, hostOps0_3, hostOps0_4, List.flatten_cons, List.flatten_nil, List.append_nil,
    List.cons_append, List.nil_append]
  after_results
  rfl

/-- Rows of 128: entry (R, q) is element 128·R + q. -/
theorem rows_apply (x : S16777216.Idx → Ideal .f32) (R : Fin 131072) (q : Fin 128) (n : Fin 16777216)
    (hn : n.val = R.val * 128 + q.val) :
    shapeCast S131072x128 x shapeCasts_S16777216_S131072x128 (ix2 R q) = x (ix1 n) :=
  shapeCast_apply x _ (ix2 R q) (ix1 n) (by rw [Shape.rowMajor_val_two, Shape.rowMajor_val_one]; exact hn)

/-- The table at (r, l), for a position 128·r + l = n inside the 501 entries, is the weight of entry n. -/
theorem tableOf_apply (w : S501.Idx → Ideal .f32) (n : Fin 501) (r : Fin 4) (l : Fin 128) (h : r.val * 128 + l.val = n.val) :
    tableOf w (ix2 r l) = WMse.invw (w (ix1 n)) := by
  have hn := n.isLt
  unfold tableOf
  rw [shapeCast_apply _ shapeCasts_S512_S4x128 (ix2 r l) (ix1 (⟨n.val, by omega⟩ : Fin 512))
      (by rw [Shape.rowMajor_val_two, Shape.rowMajor_val_one]; exact h.symm),
    pad_apply_of_inside _ _ _ _ _ pads_S501_S512_0110 h_S_ (ix1 (⟨n.val, by omega⟩ : Fin 512)) (ix1 n)
      (fun a => by
        match a with
        | ⟨0, _⟩ => show n.val = 0 + n.val * (0 + 1); omega)]
  rfl

/-- The block index maps, decided over the grid: the blocks of predictions and truths move with the point, the table's
    stays. -/
theorem in_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- Entry (r, q) of point t's block of predictions is element (4096·t + r)·128 + q of the predictions. -/
theorem pred_blk (c : Dev nD) (t : Fin cfg0.N) (r : Fin 4096) (q : Fin 128) (n : Fin 16777216)
    (hn : n.val = (t.val * 4096 + r.val) * 128 + q.val) :
    (iblk m c 0 t : Vec Ideal S4096x128 .f32) (ix2 r q) = m ((c : Thread nD τ).loc main_arg0) (ix1 n) := by
  have hN : t.val < 32 := lt_of_lt_of_eq t.isLt (show cfg0.N = 32 from N_0)
  have hR : t.val * 4096 + r.val < 131072 := by have := r.isLt; omega
  unfold iblk
  rw [View.read_apply]
  show V m c main_v6 _ = _
  rw [V_pred, ← rows_apply (m ((c : Thread nD τ).loc main_arg0)) ⟨t.val * 4096 + r.val, hR⟩ q n hn]
  refine congrArg _ (funext fun a => Fin.ext ?_)
  obtain ⟨e0, e1, -, -, -, -⟩ := in_index t
  match a with
  | ⟨0, _⟩ => show win0_0.index t (0 : Fin 2) * 4096 + 1 * r.val = t.val * 4096 + r.val; rw [e0]; omega
  | ⟨1, _⟩ => show win0_0.index t (1 : Fin 2) * 128 + 1 * q.val = q.val; rw [e1]; omega

/-- The same for the truths. -/
theorem truth_blk (c : Dev nD) (t : Fin cfg0.N) (r : Fin 4096) (q : Fin 128) (n : Fin 16777216)
    (hn : n.val = (t.val * 4096 + r.val) * 128 + q.val) :
    (iblk m c 1 t : Vec Ideal S4096x128 .f32) (ix2 r q) = m ((c : Thread nD τ).loc main_arg1) (ix1 n) := by
  have hN : t.val < 32 := lt_of_lt_of_eq t.isLt (show cfg0.N = 32 from N_0)
  have hR : t.val * 4096 + r.val < 131072 := by have := r.isLt; omega
  unfold iblk
  rw [View.read_apply]
  show V m c main_v7 _ = _
  rw [V_truth, ← rows_apply (m ((c : Thread nD τ).loc main_arg1)) ⟨t.val * 4096 + r.val, hR⟩ q n hn]
  refine congrArg _ (funext fun a => Fin.ext ?_)
  obtain ⟨-, -, e0, e1, -, -⟩ := in_index t
  match a with
  | ⟨0, _⟩ => show win0_1.index t (0 : Fin 2) * 4096 + 1 * r.val = t.val * 4096 + r.val; rw [e0]; omega
  | ⟨1, _⟩ => show win0_1.index t (1 : Fin 2) * 128 + 1 * q.val = q.val; rw [e1]; omega

/-- Every point's table block is the whole table. -/
theorem table_blk (c : Dev nD) (t : Fin cfg0.N) (r : Fin 4) (l : Fin 128) :
    (iblk m c 2 t : Vec Ideal S4x128 .f32) (ix2 r l) = tableOf (m ((c : Thread nD τ).loc main_arg2)) (ix2 r l) := by
  unfold iblk
  rw [View.read_apply]
  show V m c main_v8 _ = _
  rw [V_table]
  refine congrArg _ (funext fun a => Fin.ext ?_)
  obtain ⟨-, -, -, -, e0, e1⟩ := in_index t
  match a with
  | ⟨0, _⟩ => show win0_2.index t (0 : Fin 2) * 4 + 1 * r.val = r.val; rw [e0]; omega
  | ⟨1, _⟩ => show win0_2.index t (1 : Fin 2) * 128 + 1 * l.val = l.val; rw [e1]; omega

end Cert.KernelIdeal.Val

end
-- ==== Proof.LibSums.lean ====
import Idealize.ShloMosaic.Lib.ValueIdx

/-! # A sum taken tile by tile

A sum over `a · b` consecutive positions is the sum over `a` tiles of the sums over each tile's `b` positions; and a sum
whose terms vanish past position `n` is the sum of its first `n` terms. Stated for any commutative additive monoid. -/

namespace Cert.Sums

open scoped BigOperators

variable {M : Type} [AddCommMonoid M]

/-- Tile by tile: the sums over the tiles `k·b … k·b + b − 1`, `k < a`, add up to the sum over the first `a·b` positions. -/
theorem sum_tiles (a b : ℕ) (f : ℕ → M) :
    ∑ k ∈ Finset.range a, ∑ n : Fin b, f (k * b + n.val) = ∑ v ∈ Finset.range (a * b), f v := by
  induction a with
  | zero => simp
  | succ a ih =>
    rw [Finset.sum_range_succ, ih, Nat.succ_mul, Finset.sum_range_add]
    congr 1
    exact (Finset.sum_range (fun x => f (a * b + x))).symm

/-- Terms that vanish from position `n` on do not count. -/
theorem sum_range_of_tail_zero (n e : ℕ) (f : ℕ → M) (h : ∀ x, f (n + x) = 0) :
    ∑ v ∈ Finset.range (n + e), f v = ∑ v : Fin n, f v.val := by
  rw [Finset.sum_range_add, Finset.sum_range, Finset.sum_eq_zero (fun x _ => h x), add_zero]

end Cert.Sums
-- ==== Proof.Tiling.lean ====
/-
  The grid's order of summation is the plain order.

  The kernel adds the 2^24 terms group by group (2 groups), point by point within a group (16 points), row by row
  within a point's block (4096 rows) and lane by lane within a row (128 lanes); the element at group g, point j, row r,
  lane q is number ((16·g + j)·4096 + r)·128 + q. Added up in that arrangement the terms give the sum over all
  elements: three times, consecutive tiles of equal length add up to the whole stretch.
-/
import proofs.«109607_j6184752906812_2_alg».proof.Proof.LibSums

namespace Cert.WMse

open scoped BigOperators

variable {M : Type} [AddCommMonoid M]

/-- A point's block: 4096 rows of 128 lanes are the 524288 consecutive elements from 524288·t on. -/
theorem block_sum (F : ℕ → M) (t : ℕ) :
    ∑ r : Fin 4096, ∑ q : Fin 128, F ((t * 4096 + r.val) * 128 + q.val) = ∑ v : Fin 524288, F (t * 524288 + v.val) := by
  have e : ∀ (r : Fin 4096) (q : Fin 128), F ((t * 4096 + r.val) * 128 + q.val) = F (t * 524288 + (r.val * 128 + q.val)) :=
    fun r q => congrArg F (by ring)
  simp only [e]
  rw [← Finset.sum_range (fun r => ∑ q : Fin 128, F (t * 524288 + (r * 128 + q.val))),
    Cert.Sums.sum_tiles 4096 128 (fun v => F (t * 524288 + v)), Finset.sum_range]

/-- The whole grid: 2 groups of 16 points of such blocks are all 2^24 elements. -/
theorem grid_sum (F : ℕ → M) :
    ∑ g : Fin 2, ∑ j ∈ Finset.range 16, ∑ r : Fin 4096, ∑ q : Fin 128, F (((16 * g.val + j) * 4096 + r.val) * 128 + q.val)
      = ∑ e : Fin 16777216, F e.val := by
  simp only [block_sum]
  have e : ∀ (g : Fin 2), ∑ j ∈ Finset.range 16, ∑ v : Fin 524288, F ((16 * g.val + j) * 524288 + v.val)
      = ∑ j : Fin 16, ∑ v : Fin 524288, F ((g.val * 16 + j.val) * 524288 + v.val) := fun g => by
    rw [Finset.sum_range]
    refine Finset.sum_congr rfl fun j _ => Finset.sum_congr rfl fun v _ => congrArg F (by ring)
  simp only [e]
  rw [← Finset.sum_range (fun g => ∑ j : Fin 16, ∑ v : Fin 524288, F ((g * 16 + j.val) * 524288 + v.val)),
    Cert.Sums.sum_tiles 2 16 (fun t => ∑ v : Fin 524288, F (t * 524288 + v.val)),
    Cert.Sums.sum_tiles (2 * 16) 524288 F, Finset.sum_range]

end Cert.WMse
-- ==== Proof.LibIdxSums.lean ====
/-
  Sums over a rank-1 and over a rank-3 index set, taken coordinate by coordinate: an index of a shape [n] is its one
  coordinate, an index of a shape [n0, n1, n2] is the triple of its coordinates, so a sum over all indices is the
  iterated sum over the coordinate ranges. (The rank-2 form is the library's `sum_idx2`.) Stated for any commutative
  additive monoid and any extents.
-/
import Idealize.ShloMosaic.Lib.ValueIdx

namespace Idealize.ShloMosaic.ValueIdx

open Idealize.ShloMosaic
open scoped BigOperators

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.ValueIdx
-- ==== Proof.Bridge.lean ====
/-
  The kernel's result as one formula of its arguments.

  Point t's total is the sum, over the rows and lanes of its block, of the terms of elements (4096·t + r)·128 + q: the
  block entries are those elements, and the table read at a truth's bin is the weight of the table entry at that bin.
  The groups' sums, added to zero, are then the sum over all 2^24 elements, and the result is that sum divided by the
  word of 2^24 — the same formula the reference computes.
-/
import proofs.«109607_j6184752906812_2_alg».proof.Proof.Final
import proofs.«109607_j6184752906812_2_alg».proof.Proof.Blocks
import proofs.«109607_j6184752906812_2_alg».proof.Proof.Tiling
import proofs.«109607_j6184752906812_2_alg».proof.Proof.LibIdxSums

set_option maxRecDepth 16384

noncomputable section

open Idealize.ShloMosaic Idealize.ShloMosaic.TcCoe Idealize.ShloMosaic.ValueIdx Idealize.SL.Sem
open scoped BigOperators

namespace Cert.KernelIdeal.Val

open Cert.KernelIdeal Cert.KernelIdeal.Gen

variable (m : (ℓ : Loc nD τ sig) → Buf (Elt Ideal) ℓ)

/-- Element n's term, by its number (zero past the last element): the weight of the table entry at the truth's bin,
    times the squared difference, times 100. -/
def elemTerm (pred truth : S16777216.Idx → Ideal .f32) (wts : S501.Idx → Ideal .f32) (n : ℕ) : EReal :=
  if h : n < 16777216 then
    WMse.term (WMse.invw (wts (ix1 (WMse.binN (truth (ix1 ⟨n, h⟩)))))) (pred (ix1 ⟨n, h⟩)) (truth (ix1 ⟨n, h⟩))
  else 0

/-- Point t's total is the sum of the terms of its block's elements. -/
theorem gain_eq (c : Dev nD) (t : Fin cfg0.N) :
    gain m c t = ∑ r : Fin 4096, ∑ q : Fin 128,
      elemTerm (m ((c : Thread nD τ).loc main_arg0)) (m ((c : Thread nD τ).loc main_arg1))
        (m ((c : Thread nD τ).loc main_arg2)) ((t.val * 4096 + r.val) * 128 + q.val) := by
  have hN : t.val < 32 := lt_of_lt_of_eq t.isLt (show cfg0.N = 32 from N_0)
  unfold gain
  refine Finset.sum_congr rfl fun r _ => ?_
  rw [rowSums_apply (iblk m c 0 t) (iblk m c 1 t) (iblk m c 2 t) r]
  refine Finset.sum_congr rfl fun q _ => ?_
  have hlt : (t.val * 4096 + r.val) * 128 + q.val < 16777216 := by have := r.isLt; have := q.isLt; omega
  rw [pred_blk m c t r q ⟨_, hlt⟩ rfl, truth_blk m c t r q ⟨_, hlt⟩ rfl, WMse.pick_bin]
  unfold elemTerm
  rw [dif_pos hlt]
  unfold WMse.term
  congr 3
  show iblk m c 2 t (ix2 _ _) = _
  rw [table_blk, tableOf_apply _ (WMse.binN (m ((c : Thread nD τ).loc main_arg1) (ix1 ⟨_, hlt⟩))) _ _
    (by show _ / 128 * 128 + _ % 128 = _; omega)]

/-- Group g's sum is the sum of the terms of the elements of its sixteen points. -/
theorem groupSum_eq (c : Dev nD) (g : Fin 2) :
    groupSum m c g.val = ∑ j ∈ Finset.range 16, ∑ r : Fin 4096, ∑ q : Fin 128,
      elemTerm (m ((c : Thread nD τ).loc main_arg0)) (m ((c : Thread nD τ).loc main_arg1))
        (m ((c : Thread nD τ).loc main_arg2)) (((16 * g.val + j) * 4096 + r.val) * 128 + q.val) := by
  unfold groupSum
  refine Finset.sum_congr rfl fun j hj => ?_
  have hj' : j < 16 := Finset.mem_range.mp hj
  have hlt : 16 * g.val + j < cfg0.N := by rw [show cfg0.N = 32 from N_0]; have := g.isLt; omega
  rw [gainAt_of_lt m c _ hlt, gain_eq]

/-- The kernel's result: the terms of all elements added to zero, divided by the word of their number. -/
theorem result_apply (c : Dev nD) (i : S_.Idx) :
    result m c i = Ideal.div (Ideal.ofBits .f32 0x00000000#32 + ∑ e : Fin 16777216,
        WMse.term (WMse.invw (m ((c : Thread nD τ).loc main_arg2) (ix1 (WMse.binN (m ((c : Thread nD τ).loc main_arg1) (ix1 e))))))
          (m ((c : Thread nD τ).loc main_arg0) (ix1 e)) (m ((c : Thread nD τ).loc main_arg1) (ix1 e)))
      (Ideal.ofBits .f32 0x4B800000#32) := by
  have hsum : Host.reduceAdd (F := Ideal) (φ := .f32) (fun j : S2x1x1.Idx => groupSum m c (j 0).val)
      (constant (F := Ideal) S_ .f32 0x00000000#32) reducesTo_S2x1x1_S_d0_1_2 h_S_ i
      = Ideal.ofBits .f32 0x00000000#32 + ∑ j : S2x1x1.Idx, groupSum m c (j 0).val := by
    simp only [Host.reduceAdd, Ideal.hostReduceAdd_def]
    exact Ideal.hostReduceAdd_total reducesTo_S2x1x1_S_d0_1_2 (fun b => b.elim0) _ _ i
  unfold result
  show FloatOps.hostDivf (Host.reduceAdd (F := Ideal) (φ := .f32) (fun j : S2x1x1.Idx => groupSum m c (j 0).val)
    (constant (F := Ideal) S_ .f32 0x00000000#32) reducesTo_S2x1x1_S_d0_1_2 h_S_ i) (Ideal.ofBits .f32 0x4B800000#32) = _
  rw [hsum, sum_idx3 (fun j : S2x1x1.Idx => groupSum m c (j 0).val)]
  show Ideal.div (_ + ∑ a : Fin 2, ∑ _b : Fin 1, ∑ _c : Fin 1, groupSum m c a.val) _ = _
  have hcells : ∑ a : Fin 2, ∑ _b : Fin 1, ∑ _c : Fin 1, groupSum m c a.val = ∑ a : Fin 2, groupSum m c a.val :=
    Finset.sum_congr rfl fun a _ => by
      rw [Finset.sum_const, Finset.sum_const, Finset.card_univ, Fintype.card_fin, one_smul, one_smul]
  rw [hcells]
  have hgroups : ∑ a : Fin 2, groupSum m c a.val = ∑ e : Fin 16777216,
      elemTerm (m ((c : Thread nD τ).loc main_arg0)) (m ((c : Thread nD τ).loc main_arg1))
        (m ((c : Thread nD τ).loc main_arg2)) e.val := by
    rw [← WMse.grid_sum]
    exact Finset.sum_congr rfl fun g _ => groupSum_eq m c g
  rw [hgroups]
  have hterms : ∑ e : Fin 16777216, elemTerm (m ((c : Thread nD τ).loc main_arg0)) (m ((c : Thread nD τ).loc main_arg1))
        (m ((c : Thread nD τ).loc main_arg2)) e.val
      = ∑ e : Fin 16777216,
        WMse.term (WMse.invw (m ((c : Thread nD τ).loc main_arg2) (ix1 (WMse.binN (m ((c : Thread nD τ).loc main_arg1) (ix1 e))))))
          (m ((c : Thread nD τ).loc main_arg0) (ix1 e)) (m ((c : Thread nD τ).loc main_arg1) (ix1 e)) :=
    Finset.sum_congr rfl fun e _ => by
      unfold elemTerm
      rw [dif_pos e.isLt]
  rw [hterms]

end Cert.KernelIdeal.Val

end
-- ==== Proof.LibIndexOps.lean ====
/-
  Rows of a matrix (or entries of a vector) picked and accumulated by a list of integer positions, read at an index.

  A gather "x[idx]" along the leading axis reads, for list entry e, the row of x at position idx e, the position read as
  a signed integer and clamped into the rows of x. An accumulating scatter "y.at[idx].add(u)" adds, into row n of y, every
  list entry e's update whose position idx e, read as a signed integer and NOT clamped, is exactly n; an entry whose
  position is negative or past the last row contributes nothing. At the ideal values the accumulation is the exact sum,
  so the scattered array at (n, q) is y (n, q) plus the sum over the list entries e with idx e = n of u (e, q).
  Stated for the dimension numbers jax prints for these two operations on a matrix and on a vector, with the list of
  positions given as an [M, 1] array, for any extents.
-/
import Idealize.ShloMosaic.Lib.ValueIdx
import Idealize.ShloMosaic.PureOps.Ideal.Laws

noncomputable section

namespace Cert.LibIndexOps

open Idealize.ShloMosaic Idealize.ShloMosaic.ValueIdx
open scoped BigOperators

variable {α : Type} {N M D w : Nat}

/-! ## Gathering rows of a matrix -/

/-- The record of "x[idx]" for a matrix x : [N, D] and positions [M, 1]: whole rows, the leading axis collapsed. -/
abbrev rowsGather (N M D : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry (e, q) of the gathered rows: x at row "position e, clamped" and column q. -/
theorem gather_rows_apply (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (q : Fin D) :
    Host.gather (rowsGather N M D wf) x idx (ix2 e q)
      = x (ix2 (⟨min (idx (ix2 e (0 : Fin 1))).toInt.toNat (N - 1), by omega⟩ : Fin N) q) := by
  unfold Host.gather
  congr 1
  funext a
  refine Fin.ext ?_
  show (rowsGather N M D wf).start (ix2 e q) idx a + (rowsGather N M D wf).batchCoord (ix2 e q) a
    + (rowsGather N M D wf).offCoord (ix2 e q) a = _
  rw [GatherDims.batchCoord_eq_zero _ _ _ List.not_mem_nil]
  have key0 : (rowsGather N M D wf).start (ix2 e q) idx (0 : Fin 2) + 0 + (rowsGather N M D wf).offCoord (ix2 e q) (0 : Fin 2)
      = min (idx (ix2 e (0 : Fin 1))).toInt.toNat (N - 1) := by
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N M D wf).startIndexMap from List.mem_singleton.mpr rfl)]
    have hsi : (rowsGather N M D wf).siIdx (ix2 e q) ⟨List.idxOf (0 : Fin 2) (rowsGather N M D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have key1 : (rowsGather N M D wf).start (ix2 e q) idx (1 : Fin 2) + 0 + (rowsGather N M D wf).offCoord (ix2 e q) (1 : Fin 2)
      = q.val := by
    have hs : (rowsGather N M D wf).start (ix2 e q) idx (1 : Fin 2) = 0 := by
      unfold GatherDims.start
      rw [dif_neg (show (1 : Fin 2) ∉ ([0] : List (Fin 2)) by decide)]
    have ho : (rowsGather N M D wf).offCoord (ix2 e q) (1 : Fin 2) = q.val := by
      unfold GatherDims.offCoord
      rw [dif_pos ((GatherDims.mem_sKept _ _).2 ⟨(show (1 : Fin 2) ∉ ([0] : List (Fin 2)) by decide), List.not_mem_nil⟩)]
      rfl
    rw [hs, ho]; omega
  match a with
  | ⟨0, _⟩ => exact key0
  | ⟨1, _⟩ => exact key1

/-! ## Gathering entries of a vector -/

/-- The record of "x[idx]" for a vector x : [N] and positions [M, 1]. -/
abbrev vecGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry e of the gathered vector: x at "position e, clamped". -/
theorem gather_vec_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGather N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGather N M wf).start (ix1 e) idx 0 + (vecGather N M wf).batchCoord (ix1 e) 0 + (vecGather N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N M wf).startIndexMap from List.mem_singleton.mpr rfl)]
  have hsi : (vecGather N M wf).siIdx (ix1 e) ⟨List.idxOf (0 : Fin 1) (vecGather N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating rows into a matrix -/

/-- The record of "y.at[idx].add(u)" for a matrix y : [N, D], positions [M, 1] and updates u : [M, D]. -/
abbrev rowsScatter (N M D : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Update (e, q') lands on entry (n, q) exactly when position e is n and the columns agree. -/
theorem rows_lands_iff (wf : ScatterDims.WF ⟨2, ![N, D]⟩ ⟨2, ![M, 1]⟩ ⟨2, ![M, D]⟩ [1] [0] [0] 1)
    (idx : IVec ⟨2, ![M, 1]⟩ w) (e : Fin M) (q' : Fin D) (n : Fin N) (q : Fin D) :
    (rowsScatter N M D wf).resultIdx? (ix2 e q') idx = some (ix2 n q)
      ↔ (idx (ix2 e (0 : Fin 1))).toInt = (n.val : Int) ∧ q' = q := by
  have s0 : (rowsScatter N M D wf).start (ix2 e q') idx (0 : Fin 2) = (idx (ix2 e (0 : Fin 1))).toInt := by
    unfold ScatterDims.start
    rw [dif_pos (show (0 : Fin 2) ∈ (rowsScatter N M D wf).scatterDimsToOperandDims from List.mem_singleton.mpr rfl)]
    congr 2
    funext b; refine Fin.ext ?_
    match b with
    | ⟨0, _⟩ => rfl
    | ⟨1, _⟩ => rfl
  have s1 : (rowsScatter N M D wf).start (ix2 e q') idx (1 : Fin 2) = 0 := by
    unfold ScatterDims.start
    rw [dif_neg (show (1 : Fin 2) ∉ ([0] : List (Fin 2)) by decide)]
  have w0 : (rowsScatter N M D wf).window (ix2 e q') (0 : Fin 2) = 0 := by
    unfold ScatterDims.window
    rw [dif_neg (show (0 : Fin 2) ∉ (rowsScatter N M D wf).sKept from (by decide : (0 : Fin 2) ∉ (List.finRange 2).filter (· ∉ ([0] : List (Fin 2)))))]
  have w1 : (rowsScatter N M D wf).window (ix2 e q') (1 : Fin 2) = q'.val := by
    unfold ScatterDims.window
    rw [dif_pos (show (1 : Fin 2) ∈ (rowsScatter N M D wf).sKept from (by decide : (1 : Fin 2) ∈ (List.finRange 2).filter (· ∉ ([0] : List (Fin 2)))))]
    rfl
  have hn := n.isLt
  have hq := q.isLt
  have hq' := q'.isLt
  unfold ScatterDims.resultIdx?
  split
  · next h =>
    rw [Option.some.injEq]
    constructor
    · intro hf
      have h0 : ((rowsScatter N M D wf).start (ix2 e q') idx (0 : Fin 2) + ((rowsScatter N M D wf).window (ix2 e q') (0 : Fin 2) : Int)).toNat = n.val :=
        congrArg (fun f : (⟨2, ![N, D]⟩ : Shape).Idx => (f 0).val) hf
      have h1 : ((rowsScatter N M D wf).start (ix2 e q') idx (1 : Fin 2) + ((rowsScatter N M D wf).window (ix2 e q') (1 : Fin 2) : Int)).toNat = q.val :=
        congrArg (fun f : (⟨2, ![N, D]⟩ : Shape).Idx => (f 1).val) hf
      have hh := (h 0).1
      rw [s0, w0] at h0 hh
      rw [s1, w1] at h1
      exact ⟨by omega, Fin.ext (by omega)⟩
    · rintro ⟨h0, rfl⟩
      funext a; refine Fin.ext ?_
      match a with
      | ⟨0, _⟩ =>
        show ((rowsScatter N M D wf).start (ix2 e q') idx (0 : Fin 2) + ((rowsScatter N M D wf).window (ix2 e q') (0 : Fin 2) : Int)).toNat = n.val
        rw [s0, w0]; omega
      | ⟨1, _⟩ =>
        show ((rowsScatter N M D wf).start (ix2 e q') idx (1 : Fin 2) + ((rowsScatter N M D wf).window (ix2 e q') (1 : Fin 2) : Int)).toNat = q'.val
        rw [s1, w1]; omega
  · next h =>
    constructor
    · intro hf; exact absurd hf (by simp)
    · rintro ⟨h0, rfl⟩
      exfalso; apply h; intro a
      match a with
      | ⟨0, _⟩ =>
        show 0 ≤ (rowsScatter N M D wf).start (ix2 e q') idx (0 : Fin 2) + ((rowsScatter N M D wf).window (ix2 e q') (0 : Fin 2) : Int)
          ∧ (rowsScatter N M D wf).start (ix2 e q') idx (0 : Fin 2) + ((rowsScatter N M D wf).window (ix2 e q') (0 : Fin 2) : Int) < (N : Int)
        rw [s0, w0]; omega
      | ⟨1, _⟩ =>
        show 0 ≤ (rowsScatter N M D wf).start (ix2 e q') idx (1 : Fin 2) + ((rowsScatter N M D wf).window (ix2 e q') (1 : Fin 2) : Int)
          ∧ (rowsScatter N M D wf).start (ix2 e q') idx (1 : Fin 2) + ((rowsScatter N M D wf).window (ix2 e q') (1 : Fin 2) : Int) < (D : Int)
        rw [s1, w1]; omega

/-- Entry (n, q) of the accumulated matrix at the ideal values: y (n, q) plus the updates of the list entries whose
    position is n, at column q. -/
theorem scatterAdd_rows_apply (wf : ScatterDims.WF ⟨2, ![N, D]⟩ ⟨2, ![M, 1]⟩ ⟨2, ![M, D]⟩ [1] [0] [0] 1)
    (y : FVec Ideal ⟨2, ![N, D]⟩ .f32) (idx : IVec ⟨2, ![M, 1]⟩ w) (u : FVec Ideal ⟨2, ![M, D]⟩ .f32) (n : Fin N) (q : Fin D) :
    Host.scatterAdd (rowsScatter N M D wf) y idx u (ix2 n q)
      = y (ix2 n q) + ∑ e : Fin M, if (idx (ix2 e (0 : Fin 1))).toInt = (n.val : Int) then u (ix2 e q) else 0 := by
  show Ideal.hostScatterAdd (rowsScatter N M D wf) y idx u (ix2 n q) = _
  unfold Ideal.hostScatterAdd
  congr 1
  rw [Finset.sum_filter, sum_idx2]
  refine Finset.sum_congr rfl fun e _ => ?_
  simp only [rows_lands_iff]
  by_cases h : (idx (ix2 e (0 : Fin 1))).toInt = (n.val : Int)
  · simp only [h, true_and, if_true]
    rw [Finset.sum_ite_eq' Finset.univ q (fun q' => u (ix2 e q'))]
    simp
  · simp [h]

/-! ## Accumulating entries into a vector -/

/-- The record of "y.at[idx].add(u)" for a vector y : [N], positions [M, 1] and updates u : [M]. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e lands on entry n exactly when position e is n. -/
theorem vec_lands_iff (wf : ScatterDims.WF ⟨1, ![N]⟩ ⟨2, ![M, 1]⟩ ⟨1, ![M]⟩ [] [0] [0] 1)
    (idx : IVec ⟨2, ![M, 1]⟩ w) (e : Fin M) (n : Fin N) :
    (vecScatter N M wf).resultIdx? (ix1 e) idx = some (ix1 n) ↔ (idx (ix2 e (0 : Fin 1))).toInt = (n.val : Int) := by
  have s0 : (vecScatter N M wf).start (ix1 e) idx (0 : Fin 1) = (idx (ix2 e (0 : Fin 1))).toInt := by
    unfold ScatterDims.start
    rw [dif_pos (show (0 : Fin 1) ∈ (vecScatter N M wf).scatterDimsToOperandDims from List.mem_singleton.mpr rfl)]
    congr 2
    funext b; refine Fin.ext ?_
    match b with
    | ⟨0, _⟩ => rfl
    | ⟨1, _⟩ => rfl
  have w0 : (vecScatter N M wf).window (ix1 e) (0 : Fin 1) = 0 := by
    unfold ScatterDims.window
    rw [dif_neg (show (0 : Fin 1) ∉ (vecScatter N M wf).sKept from (by decide : (0 : Fin 1) ∉ (List.finRange 1).filter (· ∉ ([0] : List (Fin 1)))))]
  have hn := n.isLt
  unfold ScatterDims.resultIdx?
  split
  · next h =>
    rw [Option.some.injEq]
    constructor
    · intro hf
      have h0 : ((vecScatter N M wf).start (ix1 e) idx (0 : Fin 1) + ((vecScatter N M wf).window (ix1 e) (0 : Fin 1) : Int)).toNat = n.val :=
        congrArg (fun f : (⟨1, ![N]⟩ : Shape).Idx => (f 0).val) hf
      have hh := (h 0).1
      rw [s0, w0] at h0 hh
      omega
    · intro h0
      funext a; refine Fin.ext ?_
      obtain rfl : a = 0 := Subsingleton.elim _ _
      show ((vecScatter N M wf).start (ix1 e) idx (0 : Fin 1) + ((vecScatter N M wf).window (ix1 e) (0 : Fin 1) : Int)).toNat = n.val
      rw [s0, w0]; omega
  · next h =>
    constructor
    · intro hf; exact absurd hf (by simp)
    · intro h0
      exfalso; apply h; intro a
      obtain rfl : a = 0 := Subsingleton.elim _ _
      show 0 ≤ (vecScatter N M wf).start (ix1 e) idx (0 : Fin 1) + ((vecScatter N M wf).window (ix1 e) (0 : Fin 1) : Int)
        ∧ (vecScatter N M wf).start (ix1 e) idx (0 : Fin 1) + ((vecScatter N M wf).window (ix1 e) (0 : Fin 1) : Int) < (N : Int)
      rw [s0, w0]; omega

/-- Entry n of the accumulated vector at the ideal values: y n plus the updates of the list entries whose position is n. -/
theorem scatterAdd_vec_apply (wf : ScatterDims.WF ⟨1, ![N]⟩ ⟨2, ![M, 1]⟩ ⟨1, ![M]⟩ [] [0] [0] 1)
    (y : FVec Ideal ⟨1, ![N]⟩ .f32) (idx : IVec ⟨2, ![M, 1]⟩ w) (u : FVec Ideal ⟨1, ![M]⟩ .f32) (n : Fin N) :
    Host.scatterAdd (vecScatter N M wf) y idx u (ix1 n)
      = y (ix1 n) + ∑ e : Fin M, if (idx (ix2 e (0 : Fin 1))).toInt = (n.val : Int) then u (ix1 e) else 0 := by
  show Ideal.hostScatterAdd (vecScatter N M wf) y idx u (ix1 n) = _
  unfold Ideal.hostScatterAdd
  congr 1
  rw [Finset.sum_filter]
  have hsum : ∀ f : (⟨1, ![M]⟩ : Shape).Idx → EReal, ∑ j, f j = ∑ e : Fin M, f (ix1 e) := fun f =>
    (Equiv.sum_comp (⟨fun e => ix1 e, fun j => j 0, fun _ => rfl, fun j => (eq_ix1 j).symm⟩ : Fin M ≃ (⟨1, ![M]⟩ : Shape).Idx) f).symm
  rw [hsum]
  refine Finset.sum_congr rfl fun e _ => ?_
  simp only [vec_lands_iff]

end Cert.LibIndexOps

end
-- ==== Proof.Ref.lean ====
/-
  The reference's result as one formula of its arguments.

  The reference computes, element by element, the bin of the truth value, the table entry at that bin, the weight of the
  entry, and weight · |d| · |d| · 100; it adds all elements to zero and divides by their number. Read index by index:
  the entry the gather returns is the table at the bin (the bin is never negative and never past the table's end),
  and the absolute values square to the difference's square.
-/
import proofs.«109607_j6184752906812_2_alg».proof.Proof.Gen.ReferenceIdeal.Read
import proofs.«109607_j6184752906812_2_alg».proof.Proof.Spec
import proofs.«109607_j6184752906812_2_alg».proof.Proof.LibIndexOps
import proofs.«109607_j6184752906812_2_alg».proof.Proof.LibIdxSums

set_option maxRecDepth 16384

noncomputable section

open Idealize.ShloMosaic Idealize.ShloMosaic.ValueIdx
open scoped BigOperators

namespace Cert.ReferenceIdeal.RefVal

open Cert.ReferenceIdeal Cert.ReferenceIdeal.Read

/-- The clipped position the reference computes from a truth value is its bin. -/
theorem clipped_apply (x1 : S16777216.Idx → Ideal .f32) (i : S16777216.Idx) :
    val_main_v3 (F := Ideal) x1 i = WMse.bin (x1 i) := by
  rw [val_main_v3_apply, val_main_call0_v4_apply, val_main_call0_v3_apply, val_main_c_0_apply, val_main_call0_v2_apply,
    val_main_call0_v1_apply, val_main_call0_v0_apply, val_main_c_apply, val_main_v2_apply, val_main_v1_apply,
    val_main_v0_apply, val_main_cst_apply]
  rfl

/-- The position handed to the gather: the bin, wrapped around by 501 were it negative. -/
theorem position_apply (x1 : S16777216.Idx → Ideal .f32) (e : Fin 16777216) :
    val_main_v9 (F := Ideal) x1 (ix2 e (0 : Fin 1))
      = Scalar.select (IntOp.cmpi .slt (WMse.bin (x1 (ix1 e))) 0#32) (IntOp.addi (WMse.bin (x1 (ix1 e))) 501#32)
          (WMse.bin (x1 (ix1 e))) := by
  have hi : idx_main_v9 (ix2 e (0 : Fin 1)) = ix1 e := funext fun a => by
    match a with
    | ⟨0, _⟩ => rfl
  rw [val_main_v9_apply, hi, val_main_v8_apply, val_main_v5_apply, val_main_v7_apply, clipped_apply, val_main_v4_apply,
    val_main_c_1_apply, val_main_v6_apply, val_main_c_2_apply]

/-- The gathered entry: the table at the truth's bin. -/
theorem gathered_apply (x1 : S16777216.Idx → Ideal .f32) (x2 : S501.Idx → Ideal .f32) (e : Fin 16777216) :
    val_main_v10 (F := Ideal) x1 x2 (ix1 e) = x2 (ix1 (WMse.binN (x1 (ix1 e)))) := by
  unfold val_main_v10
  refine (Cert.LibIndexOps.gather_vec_apply (N := 501) (M := 16777216) (by omega)
    Facts₀.gather_S501_S16777216x1_S16777216_n_0_n_n_0_1_1_wf x2 (val_main_v9 (F := Ideal) x1) e).trans ?_
  refine congrArg x2 (congrArg ix1 (Fin.ext ?_))
  show min (val_main_v9 (F := Ideal) x1 (ix2 e (0 : Fin 1))).toInt.toNat (501 - 1) = (WMse.binN (x1 (ix1 e))).val
  rw [position_apply]
  exact WMse.whole_bin _

/-- One element of the summand: the weight of the table entry at the truth's bin, times the squared difference, times 100. -/
theorem summand_apply (x0 x1 : S16777216.Idx → Ideal .f32) (x2 : S501.Idx → Ideal .f32) (e : Fin 16777216) :
    val_main_v21 (F := Ideal) x0 x1 x2 (ix1 e)
      = WMse.term (WMse.invw (x2 (ix1 (WMse.binN (x1 (ix1 e)))))) (x0 (ix1 e)) (x1 (ix1 e)) := by
  rw [val_main_v21_apply, val_main_v19_apply, val_main_v18_apply, val_main_v15_apply, val_main_v12_apply,
    val_main_v14_apply, gathered_apply, val_main_v11_apply, val_main_cst_3_apply, val_main_v13_apply,
    val_main_cst_4_apply, val_main_call1_v0_apply, val_main_cst_5_apply, val_main_v17_apply, val_main_v16_apply,
    val_main_v20_apply, val_main_cst_6_apply]
  show WMse.invw _ * max (x0 (ix1 e) - x1 (ix1 e)) (-(x0 (ix1 e) - x1 (ix1 e))) * max (x0 (ix1 e) - x1 (ix1 e)) (-(x0 (ix1 e) - x1 (ix1 e)))
    * Ideal.ofBits .f32 0x42C80000#32 = _
  rw [WMse.abs_sq]
  rfl

/-- The reference's result: the terms of all elements added to zero, divided by the word of their number. -/
theorem result_apply (x0 x1 : S16777216.Idx → Ideal .f32) (x2 : S501.Idx → Ideal .f32) (i : S_.Idx) :
    val_main_v23 (F := Ideal) x0 x1 x2 i
      = Ideal.div (Ideal.ofBits .f32 0x00000000#32 + ∑ e : Fin 16777216,
          WMse.term (WMse.invw (x2 (ix1 (WMse.binN (x1 (ix1 e)))))) (x0 (ix1 e)) (x1 (ix1 e)))
        (Ideal.ofBits .f32 0x4B800000#32) := by
  rw [val_main_v23_apply, val_main_v22_apply, val_main_cst_7_apply, val_main_cst_8_apply, sum_idx1]
  simp only [summand_apply]
  rfl

end Cert.ReferenceIdeal.RefVal

end
-- ==== Proof.lean ====
/-
  A weighted mean of squared errors, the weight looked up in a table by the truth value's bin: the kernel against its
  reference, at the ideal values.

  Both programs compute, for each of the 2^24 elements, weight · d · d · 100 with d the prediction minus the truth and the
  weight that of the table entry at the truth's bin, add the terms to zero and divide by the word of 2^24. The kernel
  keeps the weights as four rows of 128, reads them by the bin's low seven bits and next two bits, and adds the terms
  block by block into two cells which the host adds at the end; the reference gathers the entry at the bin, takes the
  weight after the gather and squares the absolute difference. Proof/Bridge.lean has the kernel's result as the formula,
  Proof/Ref.lean the reference's; here the two runs are put side by side. The idealization rewrote nothing, so the
  kernel's frame at the word level and at the ideal values is the generated one, and the reference's frame is its run.
-/
import proofs.«109607_j6184752906812_2_alg».proof.Defs
import proofs.«109607_j6184752906812_2_alg».proof.Proof.Gen.Kernel
import proofs.«109607_j6184752906812_2_alg».proof.Proof.Gen.Kernel.Skeleton
import proofs.«109607_j6184752906812_2_alg».proof.Proof.Gen.Kernel.Launch
import proofs.«109607_j6184752906812_2_alg».proof.Proof.Gen.Kernel.Points
import proofs.«109607_j6184752906812_2_alg».proof.Proof.Gen.Kernel.Frame
import proofs.«109607_j6184752906812_2_alg».proof.Proof.Gen.KernelIdeal
import proofs.«109607_j6184752906812_2_alg».proof.Proof.Gen.KernelIdeal.Skeleton
import proofs.«109607_j6184752906812_2_alg».proof.Proof.Gen.KernelIdeal.Launch
import proofs.«109607_j6184752906812_2_alg».proof.Proof.Gen.KernelIdeal.Points
import proofs.«109607_j6184752906812_2_alg».proof.Proof.Gen.KernelIdeal.Frame
import proofs.«109607_j6184752906812_2_alg».proof.Proof.Gen.ReferenceIdeal
import proofs.«109607_j6184752906812_2_alg».proof.Proof.Gen.Pre_finite_inputs
import proofs.«109607_j6184752906812_2_alg».proof.Proof.Gen.ReferenceIdeal.Run
import proofs.«109607_j6184752906812_2_alg».proof.Proof.Gen.ReferenceIdeal.Read
import proofs.«109607_j6184752906812_2_alg».proof.Proof.Bridge
import proofs.«109607_j6184752906812_2_alg».proof.Proof.Ref
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result is the formula of its arguments, the reference's the same formula of arguments that agree. -/
theorem algebraic : Cert.algebraic_KernelIdeal_ReferenceIdeal := by
  intro m ρ m' ρ' _ hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq]
  funext i
  show _ = Cert.KernelIdeal.Val.result m c i
  rw [Cert.ReferenceIdeal.RefVal.result_apply, Cert.KernelIdeal.Val.result_apply, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
